-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S18000x128 : Shape := ⟨2, ![18000, 128]⟩

abbrev nBuf : Space → Nat
  | .hbm => 5
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x128, .f32⟩
  | .hbm, ⟨4, _⟩ => ⟨S100000x128, .f32⟩
  | .local _ .vmem, ⟨0, _⟩ => ⟨S18000x128, .f32⟩
  | .local _ .vmem, ⟨1, _⟩ => ⟨S18000x128, .f32⟩
  | .local _ .vmem, ⟨2, _⟩ => ⟨S18000x128, .f32⟩
  | .local _ .vmem, ⟨3, _⟩ => ⟨S18000x128, .f32⟩
  | .local _ .vmem, ⟨4, _⟩ => ⟨S128x128, .f32⟩
  | .local _ .vmem, ⟨5, _⟩ => ⟨S128x128, .f32⟩
  | .local _ .vmem, ⟨6, _⟩ => ⟨S18000x128, .f32⟩
  | .local _ .vmem, ⟨7, _⟩ => ⟨S18000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S18000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S18000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S18000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S18000x128_S18000x128_0_0 : ∀ a, (![0, 0] : Fin 2 → Nat) a + S18000x128.size a ≤ S18000x128.size a
  h_S18000x128 : 0 < S18000x128.numel
  inb_S128x128_S128x128_0_0 : ∀ a, (![0, 0] : Fin 2 → Nat) a + S128x128.size a ≤ S128x128.size a
  h_S128x128 : 0 < S128x128.numel
  dot_S18000x128_S128x128_S18000x128_1_0_0_1_n_n_wf : DotDims.WF S18000x128 S128x128 S18000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S18000x128.size a < S100000x128.size a
  hwx0_0 : ∀ i : grid0.Coords, EltTy.bits .f32 = 32 ∨ (Rect.unit (s := S100000x128) (fun a => cc0_transform_0 i a * S18000x128.size a) (fun a => (Pipeline.Clip.of (cc0_transform_0 i a) (S18000x128.size a) (S100000x128.size a)).extent (S18000x128.size a)) fun a => Pipeline.Clip.inb (Pipeline.Clip.ok_of (hstart0_0 i a))).WholeWords (EltTy.packing .f32)
  hwxs0_0 : ∀ i : grid0.Coords, EltTy.bits .f32 = 32 ∨ (Rect.unit (s := S18000x128) (fun _ => 0) (fun a => (Pipeline.Clip.of (cc0_transform_0 i a) (S18000x128.size a) (S100000x128.size a)).extent (S18000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S18000x128.size a < S100000x128.size a
  hwx0_1 : ∀ i : grid0.Coords, EltTy.bits .f32 = 32 ∨ (Rect.unit (s := S100000x128) (fun a => cc0_transform_1 i a * S18000x128.size a) (fun a => (Pipeline.Clip.of (cc0_transform_1 i a) (S18000x128.size a) (S100000x128.size a)).extent (S18000x128.size a)) fun a => Pipeline.Clip.inb (Pipeline.Clip.ok_of (hstart0_1 i a))).WholeWords (EltTy.packing .f32)
  hwxs0_1 : ∀ i : grid0.Coords, EltTy.bits .f32 = 32 ∨ (Rect.unit (s := S18000x128) (fun _ => 0) (fun a => (Pipeline.Clip.of (cc0_transform_1 i a) (S18000x128.size a) (S100000x128.size a)).extent (S18000x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S18000x128.size a < S100000x128.size a
  hwx0_4 : ∀ i : grid0.Coords, EltTy.bits .f32 = 32 ∨ (Rect.unit (s := S100000x128) (fun a => cc0_transform_4 i a * S18000x128.size a) (fun a => (Pipeline.Clip.of (cc0_transform_4 i a) (S18000x128.size a) (S100000x128.size a)).extent (S18000x128.size a)) fun a => Pipeline.Clip.inb (Pipeline.Clip.ok_of (hstart0_4 i a))).WholeWords (EltTy.packing .f32)
  hwxs0_4 : ∀ i : grid0.Coords, EltTy.bits .f32 = 32 ∨ (Rect.unit (s := S18000x128) (fun _ => 0) (fun a => (Pipeline.Clip.of (cc0_transform_4 i a) (S18000x128.size a) (S100000x128.size a)).extent (S18000x128.size a)) fun a => (Nat.zero_add _).trans_le (Pipeline.Clip.extent_le (Pipeline.Clip.ok_of (hstart0_4 i a)))).WholeWords (EltTy.packing .f32)

variable [Facts₀]

def dot_S18000x128_S128x128_S18000x128_1_0_0_1_n_n : DotDims S18000x128 S128x128 S18000x128 where
  lhsContracting := [1]
  rhsContracting := [0]
  lhsNonContracting := [0]
  rhsNonContracting := [1]
  lhsBatch := []
  rhsBatch := []
  wf := dot_S18000x128_S128x128_S18000x128_1_0_0_1_n_n_wf

abbrev win0_0 : Pipeline.Window sig grid0 :=
  Pipeline.Window.ofSpecClip (Memref.whole main_arg0) S18000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S18000x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S18000x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S_ : Shape := ⟨0, ![]⟩
abbrev S100000 : Shape := ⟨1, ![100000]⟩

abbrev nBuf : Space → Nat
  | .hbm => 15
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S100000, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S100000x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S_S100000 : S_.BroadcastsInDim S100000 (![] : Fin 0 → Fin S100000.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BitsBody.lean ====
/-
  The frame of the program `Kernel`: it runs to the end, faults nowhere, and leaves its four argument arrays as they were.

  The pallas_call walks the 100000 rows of the two feature matrices in six blocks of 18000 rows; the sixth block starts at
  row 90000 and so only its first 10000 rows lie inside the arrays. A fetch of that block fills the first 10000 rows of the
  staging buffer and leaves the other 8000 rows at words nothing names; the write-back of the result's sixth block writes
  the buffer's first 10000 rows onto rows 90000‥99999 and nothing past the array's end. The two 128×128 weight matrices
  are fetched once, at the first point, and read at every point.

  The body at one point: it loads the two row blocks X, Y and the two weight matrices A, B whole, and stores
  max(X·A + Y·B, 0) over the whole result buffer. Here that is stated of ARBITRARY contents of the five buffers
  (`sound_kernel`), then at the contents the pipeline hands the body at a point (`sound_body`). For the frame nothing of the
  result buffer's contents is needed: the result window is forgotten, the four inputs are handed back as found.
-/
import proofs.«153068_g1125281432215_week1_w3_1517_26_alg».proof.Proof.Gen.Kernel.Frame
import proofs.«153068_g1125281432215_week1_w3_1517_26_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on arbitrary contents -/

/-- The whole 18000×128 buffer as a rectangle, and the whole 128×128 one: every access of the body is through these. -/
abbrev rowsRect : Rect S18000x128 := Rect.unit (s := S18000x128) ![0, 0] S18000x128.size inb_S18000x128_S18000x128_0_0
abbrev wRect : Rect S128x128 := Rect.unit (s := S128x128) ![0, 0] S128x128.size inb_S128x128_S128x128_0_0

/-- What the result's staging buffer holds after the body when the row buffers hold `x0`, `x1` and the weight buffers
    `x2`, `x3`: its one store, of the payload of the four whole loads. -/
def stored (x0 x1 : Vec F S18000x128 .f32) (x2 x3 : Vec F S128x128 .f32) : Vec F S18000x128 .f32 :=
  View.canon [⟨rowsRect, k0_pay1 (View.ld x0 rowsRect) (View.ld x2 wRect) (View.ld x1 rowsRect) (View.ld x3 wRect)⟩]

/-- The one store covers the buffer. -/
theorem stored_cover (p0 : Vec F S18000x128 .f32) (y : S18000x128.Idx) :
    ∃ pc ∈ ([⟨rowsRect, p0⟩] : List (View.Piece (Elt F) S18000x128 .f32)), y ∈ pc.1.set :=
  View.cover_of_tiled [⟨rowsRect, p0⟩] S18000x128.size (by rfl) y

set_option maxHeartbeats 1000000 in
/-- The body on whole staging memrefs holding `x0 … x3` (the result's holding anything): it runs, the four input buffers
    end as they were and the result's at `stored x0 x1 x2 x3`. -/
theorem sound_kernel (c : Dev nD) (E : Set ℕ) (i : grid0.Coords)
    (arg1 : Memref sig .tc .vmem S18000x128 .f32) (harg1 : arg1.IsWhole) (arg2 : Memref sig .tc .vmem S18000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S18000x128 .f32) (harg5 : arg5.IsWhole)
    (x0 x1 : Vec F S18000x128 .f32) (x2 x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

/-! ## The proof data -/

/-- The zero word: what the rows of a row buffer past the array's end are taken to hold in the proof data (nothing reads
    them: the obligation of a window whose last block overhangs is stated on the rows inside the array only). -/
def zeroRows : S18000x128.Idx → Elt F .f32 := fun _ => Scalar.ofBits .f32 0x00000000#32

/-- The first feature matrix's rows of point `t` as a full 18000-row buffer: the rows inside the array, then zeros. -/
def rows0 (c : Dev nD) (t : Fin cfg0.N) : S18000x128.Idx → Elt F .f32 :=
  (cfg0.win 0).fill (cfg0.grid.coords t) zeroRows (iblk m c 0 t)
/-- The second feature matrix's likewise. -/
def rows1 (c : Dev nD) (t : Fin cfg0.N) : S18000x128.Idx → Elt F .f32 :=
  (cfg0.win 1).fill (cfg0.grid.coords t) zeroRows (iblk m c 1 t)

/-- The proof data of the one pipeline on core `c`: the arrays as launched; after the body at point `t` the row buffers
    at the point's rows (`rows0`, `rows1`), the weight buffers at the weights, the result's at `stored` of those. -/
def dats (_ : Fin 1) (c : Dev nD) : Dat τ (Elt F) Unit ℕ (UR sig nD τ) ℕ cfg0 c where
  A w := V m c (Pipeline.arrRef spec0 w)
  after w t := match w with
    | ⟨0, _⟩ => rows0 m c t
    | ⟨1, _⟩ => rows1 m c t
    | ⟨2, _⟩ => iblk m c 2 t
    | ⟨3, _⟩ => iblk m c 3 t
    | ⟨4, _⟩ => stored (rows0 m c t) (rows1 m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = rows0 m c t := by dsimp only [dats]
theorem after_1 (c : Dev nD) (t : Fin cfg0.N) : (dats m 0 c).after 1 t = rows1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = stored (rows0 m c t) (rows1 m c t) (iblk m c 2 t) (iblk m c 3 t) := by dsimp only [dats]

/-- A row window is fetched at every point: the body finds its buffer at the point's rows inside the array, and at
    whatever the buffer held (`d`) past the array's end. -/
theorem before_0 (c : Dev nD) (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]
/-- The weight windows, fetched at the first point only, hold the weights at every point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point, the result window forgotten -/

/-- The result window, whose contents the frame does not speak of. -/
def forgets : Fin 5 → Bool := fun w => w.val == 4

/-- What the body is called with at point `t`: each input's buffer as the pipeline left it, the result's at anything; -/
def framePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the row buffers at the point's rows on the part inside the array, the weights' at the weights,
    the result's at anything. -/
def framePost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The rows inside the array of `rows0`, `rows1` are the point's rows. -/
theorem cut_rows0 (c : Dev nD) (t : Fin cfg0.N) : (cfg0.win 0).cut (cfg0.grid.coords t) (rows0 m c t) = iblk m c 0 t :=
  (cfg0.win 0).cut_fill _ _ _
theorem cut_rows1 (c : Dev nD) (t : Fin cfg0.N) : (cfg0.win 1).cut (cfg0.grid.coords t) (rows1 m c t) = iblk m c 1 t :=
  (cfg0.win 1).cut_fill _ _ _

theorem sound_frame_body (c : Dev nD) (t : Fin cfg0.N) :
    framePre m c t ⊢ wp frame (wpE (defs₀ (F := F)) Variants.none c none) Set.univ (bodyAt0 t) (fun _ => framePost m c t) := by
  unfold framePre framePost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, cut_rows0, cut_rows1]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    ((cfg0.win 0).fill (cfg0.grid.coords t) d0 (iblk m c 0 t)) ((cfg0.win 1).fill (cfg0.grid.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexists _; iexact H4

/-- The library's body obligation with the result window forgotten, at every point. -/
theorem frame_obligation (c : Dev nD) :
    BodyObligationLoose (dats (F := F) m 0 c) (defs₀ (F := F)) Variants.none () Set.univ forgets := fun t => by
  rw [bigSep_W0, bigSep_W0]
  exact sound_frame_body m c t

/-! ## The run and the frame -/

set_option backward.isDefEq.respectTransparency.types false in
/-- Every weakly fair execution of @main terminates, and every final state has each input array of the pipeline as it
    was at the region's entry; of the result array nothing is said here. -/
theorem run_frame : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (frame_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs and its four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c)),
     (Eq.mp (congrFun (((dats m 0 c).toRForget forgets).ArrAt_in 2 rfl _) _) ((h c).1 2)).trans ((A_eq m c 2).trans (V_main_arg2 m c)),
     (Eq.mp (congrFun (((dats m 0 c).toRForget forgets).ArrAt_in 3 rfl _) _) ((h c).1 3)).trans ((A_eq m c 3).trans (V_main_arg3 m c))⟩)
    (run_frame m ρ)

end Cert.Kernel.Hand

end
-- ==== Proof.IdealBody.lean ====
/-
  The frame of the program `KernelIdeal`: it runs to the end, faults nowhere, and leaves its four argument arrays as they were.

  The pallas_call walks the 100000 rows of the two feature matrices in six blocks of 18000 rows; the sixth block starts at
  row 90000 and so only its first 10000 rows lie inside the arrays. A fetch of that block fills the first 10000 rows of the
  staging buffer and leaves the other 8000 rows at words nothing names; the write-back of the result's sixth block writes
  the buffer's first 10000 rows onto rows 90000‥99999 and nothing past the array's end. The two 128×128 weight matrices
  are fetched once, at the first point, and read at every point.

  The body at one point: it loads the two row blocks X, Y and the two weight matrices A, B whole, and stores
  max(X·A + Y·B, 0) over the whole result buffer. Here that is stated of ARBITRARY contents of the five buffers
  (`sound_kernel`), then at the contents the pipeline hands the body at a point (`sound_body`). For the frame nothing of the
  result buffer's contents is needed: the result window is forgotten, the four inputs are handed back as found.
-/
import proofs.«153068_g1125281432215_week1_w3_1517_26_alg».proof.Proof.Gen.KernelIdeal.Frame
import proofs.«153068_g1125281432215_week1_w3_1517_26_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on arbitrary contents -/

/-- The whole 18000×128 buffer as a rectangle, and the whole 128×128 one: every access of the body is through these. -/
abbrev rowsRect : Rect S18000x128 := Rect.unit (s := S18000x128) ![0, 0] S18000x128.size inb_S18000x128_S18000x128_0_0
abbrev wRect : Rect S128x128 := Rect.unit (s := S128x128) ![0, 0] S128x128.size inb_S128x128_S128x128_0_0

/-- What the result's staging buffer holds after the body when the row buffers hold `x0`, `x1` and the weight buffers
    `x2`, `x3`: its one store, of the payload of the four whole loads. -/
def stored (x0 x1 : Vec F S18000x128 .f32) (x2 x3 : Vec F S128x128 .f32) : Vec F S18000x128 .f32 :=
  View.canon [⟨rowsRect, k0_pay1 (View.ld x0 rowsRect) (View.ld x2 wRect) (View.ld x1 rowsRect) (View.ld x3 wRect)⟩]

/-- The one store covers the buffer. -/
theorem stored_cover (p0 : Vec F S18000x128 .f32) (y : S18000x128.Idx) :
    ∃ pc ∈ ([⟨rowsRect, p0⟩] : List (View.Piece (Elt F) S18000x128 .f32)), y ∈ pc.1.set :=
  View.cover_of_tiled [⟨rowsRect, p0⟩] S18000x128.size (by rfl) y

set_option maxHeartbeats 1000000 in
/-- The body on whole staging memrefs holding `x0 … x3` (the result's holding anything): it runs, the four input buffers
    end as they were and the result's at `stored x0 x1 x2 x3`. -/
theorem sound_kernel (c : Dev nD) (E : Set ℕ) (i : grid0.Coords)
    (arg1 : Memref sig .tc .vmem S18000x128 .f32) (harg1 : arg1.IsWhole) (arg2 : Memref sig .tc .vmem S18000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S18000x128 .f32) (harg5 : arg5.IsWhole)
    (x0 x1 : Vec F S18000x128 .f32) (x2 x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

/-! ## The proof data -/

/-- The zero word: what the rows of a row buffer past the array's end are taken to hold in the proof data (nothing reads
    them: the obligation of a window whose last block overhangs is stated on the rows inside the array only). -/
def zeroRows : S18000x128.Idx → Elt F .f32 := fun _ => Scalar.ofBits .f32 0x00000000#32

/-- The first feature matrix's rows of point `t` as a full 18000-row buffer: the rows inside the array, then zeros. -/
def rows0 (c : Dev nD) (t : Fin cfg0.N) : S18000x128.Idx → Elt F .f32 :=
  (cfg0.win 0).fill (cfg0.grid.coords t) zeroRows (iblk m c 0 t)
/-- The second feature matrix's likewise. -/
def rows1 (c : Dev nD) (t : Fin cfg0.N) : S18000x128.Idx → Elt F .f32 :=
  (cfg0.win 1).fill (cfg0.grid.coords t) zeroRows (iblk m c 1 t)

/-- The proof data of the one pipeline on core `c`: the arrays as launched; after the body at point `t` the row buffers
    at the point's rows (`rows0`, `rows1`), the weight buffers at the weights, the result's at `stored` of those. -/
def dats (_ : Fin 1) (c : Dev nD) : Dat τ (Elt F) Unit ℕ (UR sig nD τ) ℕ cfg0 c where
  A w := V m c (Pipeline.arrRef spec0 w)
  after w t := match w with
    | ⟨0, _⟩ => rows0 m c t
    | ⟨1, _⟩ => rows1 m c t
    | ⟨2, _⟩ => iblk m c 2 t
    | ⟨3, _⟩ => iblk m c 3 t
    | ⟨4, _⟩ => stored (rows0 m c t) (rows1 m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = rows0 m c t := by dsimp only [dats]
theorem after_1 (c : Dev nD) (t : Fin cfg0.N) : (dats m 0 c).after 1 t = rows1 m c t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = stored (rows0 m c t) (rows1 m c t) (iblk m c 2 t) (iblk m c 3 t) := by dsimp only [dats]

/-- A row window is fetched at every point: the body finds its buffer at the point's rows inside the array, and at
    whatever the buffer held (`d`) past the array's end. -/
theorem before_0 (c : Dev nD) (t : Fin cfg0.N) (d) :
    (dats m 0 c).before 0 t d = (cfg0.win 0).fill (cfg0.grid.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = (cfg0.win 1).fill (cfg0.grid.coords t) d (iblk m c 1 t) := by
  unfold Dat.before; rw [if_pos (fetch0_1 t)]; unfold Dat.fetched Dat.blockOf iblk; rw [A_eq]
/-- The weight windows, fetched at the first point only, hold the weights at every point. -/
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The body at a point, the result window forgotten -/

/-- The result window, whose contents the frame does not speak of. -/
def forgets : Fin 5 → Bool := fun w => w.val == 4

/-- What the body is called with at point `t`: each input's buffer as the pipeline left it, the result's at anything; -/
def framePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the row buffers at the point's rows on the part inside the array, the weights' at the weights,
    the result's at anything. -/
def framePost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

/-- The rows inside the array of `rows0`, `rows1` are the point's rows. -/
theorem cut_rows0 (c : Dev nD) (t : Fin cfg0.N) : (cfg0.win 0).cut (cfg0.grid.coords t) (rows0 m c t) = iblk m c 0 t :=
  (cfg0.win 0).cut_fill _ _ _
theorem cut_rows1 (c : Dev nD) (t : Fin cfg0.N) : (cfg0.win 1).cut (cfg0.grid.coords t) (rows1 m c t) = iblk m c 1 t :=
  (cfg0.win 1).cut_fill _ _ _

theorem sound_frame_body (c : Dev nD) (t : Fin cfg0.N) :
    framePre m c t ⊢ wp frame (wpE (defs₀ (F := F)) Variants.none c none) Set.univ (bodyAt0 t) (fun _ => framePost m c t) := by
  unfold framePre framePost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, cut_rows0, cut_rows1]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    ((cfg0.win 0).fill (cfg0.grid.coords t) d0 (iblk m c 0 t)) ((cfg0.win 1).fill (cfg0.grid.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexists _; iexact H4

/-- The library's body obligation with the result window forgotten, at every point. -/
theorem frame_obligation (c : Dev nD) :
    BodyObligationLoose (dats (F := F) m 0 c) (defs₀ (F := F)) Variants.none () Set.univ forgets := fun t => by
  rw [bigSep_W0, bigSep_W0]
  exact sound_frame_body m c t

/-! ## The run and the frame -/

set_option backward.isDefEq.respectTransparency.types false in
/-- Every weakly fair execution of @main terminates, and every final state has each input array of the pipeline as it
    was at the region's entry; of the result array nothing is said here. -/
theorem run_frame : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (frame_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the program runs and its four argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((dats m 0 c).toRForget forgets).ArrAt_in 0 rfl _) _) ((h c).1 0)).trans ((A_eq m c 0).trans (V_main_arg0 m c)),
     (Eq.mp (congrFun (((dats m 0 c).toRForget forgets).ArrAt_in 1 rfl _) _) ((h c).1 1)).trans ((A_eq m c 1).trans (V_main_arg1 m c)),
     (Eq.mp (congrFun (((dats m 0 c).toRForget forgets).ArrAt_in 2 rfl _) _) ((h c).1 2)).trans ((A_eq m c 2).trans (V_main_arg2 m c)),
     (Eq.mp (congrFun (((dats m 0 c).toRForget forgets).ArrAt_in 3 rfl _) _) ((h c).1 3)).trans ((A_eq m c 3).trans (V_main_arg3 m c))⟩)
    (run_frame m ρ)

end Cert.KernelIdeal.Hand

end
-- ==== Proof.Spec.lean ====
/-
  The layer's result, element by element, on the extended reals.

  For row matrices X, Y with 128 columns and 128×128 weight matrices A, B the element (r, q) of max(X·A + Y·B, 0) is
      max ((∑ₖ X[r,k]·A[k,q]) + (∑ₖ Y[r,k]·B[k,q])) 0 .
  It reads row r of X and of Y and column q of A and of B and nothing else, so two settings that agree on those rows and
  columns give the same element, whatever the number of rows of the matrices: the 18000-row block a grid point holds and
  the whole 100000-row array give the same element once the block's row is the array's.
-/
import Idealize.ShloMosaic.Lib.ValueIdx
import Idealize.ShloMosaic.PureOps.Ideal.Laws

noncomputable section

open scoped BigOperators

namespace Cert.SumCombine

open Idealize.ShloMosaic Idealize.ShloMosaic.ValueIdx

/-- Element (r, q) of max(X·A + Y·B, 0). -/
def elem {M : Nat} (x y : (⟨2, ![M, 128]⟩ : Shape).Idx → EReal) (a b : (⟨2, ![128, 128]⟩ : Shape).Idx → EReal)
    (r : Fin M) (q : Fin 128) : EReal :=
  max ((∑ k : Fin 128, x (ix2 r k) * a (ix2 k q)) + ∑ k : Fin 128, y (ix2 r k) * b (ix2 k q)) 0

/-- The element depends on row r of X and Y and on column q of A and B only. -/
theorem elem_eq_of {M M' : Nat} (x y : (⟨2, ![M, 128]⟩ : Shape).Idx → EReal) (x' y' : (⟨2, ![M', 128]⟩ : Shape).Idx → EReal)
    (a b a' b' : (⟨2, ![128, 128]⟩ : Shape).Idx → EReal) (r : Fin M) (r' : Fin M') (q q' : Fin 128)
    (hx : ∀ k, x (ix2 r k) = x' (ix2 r' k)) (hy : ∀ k, y (ix2 r k) = y' (ix2 r' k))
    (ha : ∀ k, a (ix2 k q) = a' (ix2 k q')) (hb : ∀ k, b (ix2 k q) = b' (ix2 k q')) :
    elem x y a b r q = elem x' y' a' b' r' q' := by
  unfold elem
  simp only [hx, hy, ha, hb]

/-- The whole result: max(X·A + Y·B, 0) as a function of the index. -/
def layer {M : Nat} (x y : (⟨2, ![M, 128]⟩ : Shape).Idx → EReal) (a b : (⟨2, ![128, 128]⟩ : Shape).Idx → EReal) :
    (⟨2, ![M, 128]⟩ : Shape).Idx → EReal := fun i => elem x y a b (i 0) (i 1)

theorem layer_ix2 {M : Nat} (x y : (⟨2, ![M, 128]⟩ : Shape).Idx → EReal) (a b : (⟨2, ![128, 128]⟩ : Shape).Idx → EReal)
    (r : Fin M) (q : Fin 128) : layer x y a b (ix2 r q) = elem x y a b r q := rfl

end Cert.SumCombine

end
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.IdealValue.lean ====
/-
  What the idealized kernel's result array holds after the run, on the extended reals: element (r, q) is
  max ((∑ₖ src[r,k]·W_self[k,q]) + (∑ₖ neigh[r,k]·W_neigh[k,q])) 0, for every row r below 100000.

  At a grid point t the body stores max(X·A + Y·B, 0) of its four buffers. Row p of that block reads row p of X and of Y
  only, so on the rows inside the array — the first 18000, or for the sixth block the first 10000 — it is the same
  whatever the buffers' rows past the array's end hold, and it is the array-level element at row 18000·t + p. The write-back
  writes exactly those rows, the six blocks' rows cover 0‥99999, and so the array ends at the layer's result.
-/
import proofs.«153068_g1125281432215_week1_w3_1517_26_alg».proof.Proof.IdealBody
import proofs.«153068_g1125281432215_week1_w3_1517_26_alg».proof.Proof.Spec
import proofs.«153068_g1125281432215_week1_w3_1517_26_alg».proof.Proof.LibMatmul

set_option maxRecDepth 16384

noncomputable section

namespace Cert.KernelIdeal.HandValue

open Cert.KernelIdeal Cert.KernelIdeal.Gen Cert.KernelIdeal.Hand Cert.SumCombine Cert.Layer.Matmul
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body's payload at an index -/

theorem zero_off : (![0, 0] : Fin 2 → Nat) = fun _ => 0 := funext fun a => by fin_cases a <;> rfl

/-- The one whole store of the payload of the whole loads is the payload of the buffers' contents. -/
theorem stored_eq {F : FTy → Type} [FloatOps F] (x0 x1 : Vec F S18000x128 .f32) (x2 x3 : Vec F S128x128 .f32) :
    stored x0 x1 x2 x3 = k0_pay1 x0 x2 x1 x3 := by
  unfold stored
  rw [View.canon_unit_zero zero_off]
  simp only [View.ld_unit_zero (S := S18000x128) zero_off, View.ld_unit_zero (S := S128x128) zero_off]

/-- The payload at (p, q): the two matrix products into zero accumulators are sums over the shared axis, their sum is
    taken and then the maximum with the zero word, which is the real 0. -/
theorem pay_apply (v0 v3 : FVec Ideal S18000x128 .f32) (v1 v4 : FVec Ideal S128x128 .f32) (p : Fin 18000) (q : Fin 128) :
    k0_pay1 (F := Ideal) v0 v1 v3 v4 (ix2 p q) = elem v0 v3 v1 v4 p q := by
  unfold k0_pay1 elem
  show max (FloatOps.matmul dot_S18000x128_S128x128_S18000x128_1_0_0_1_n_n none v0 v1 (constant S18000x128 .f32 0x00000000#32) (ix2 p q)
      + FloatOps.matmul dot_S18000x128_S128x128_S18000x128_1_0_0_1_n_n none v3 v4 (constant S18000x128 .f32 0x00000000#32) (ix2 p q))
    (Ideal.ofBits .f32 0x00000000#32) = _
  rw [Ideal.matmul_constant_zero_apply, Ideal.matmul_constant_zero_apply, Ideal.ofBits_zero_f32,
    plain_contr_sum _ rfl rfl rfl rfl rfl rfl v0 v1 (ix2 p q), plain_contr_sum _ rfl rfl rfl rfl rfl rfl v3 v4 (ix2 p q)]

/-! ## The schedule, decided over the six points -/

/-- The row windows and the result's sit at block (t, 0) at point t; the weight windows at block (0, 0). -/
theorem sched : ∀ t : Fin cfg0.N,
    win0_0.index t (0 : Fin 2) = t.val ∧ win0_0.index t (1 : Fin 2) = 0
    ∧ win0_1.index t (0 : Fin 2) = t.val ∧ win0_1.index t (1 : Fin 2) = 0
    ∧ win0_4.index t (0 : Fin 2) = t.val ∧ win0_4.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The rows of a block inside the array: 18000, and 10000 for the sixth block; all 128 columns always. -/
theorem cuts : ∀ t : Fin cfg0.N,
    win0_0.xsize (grid0.coords t) (0 : Fin 2) = (if t.val = 5 then 10000 else 18000)
    ∧ win0_1.xsize (grid0.coords t) (0 : Fin 2) = (if t.val = 5 then 10000 else 18000)
    ∧ win0_4.xsize (grid0.coords t) (0 : Fin 2) = (if t.val = 5 then 10000 else 18000)
    ∧ win0_0.xsize (grid0.coords t) (1 : Fin 2) = 128
    ∧ win0_1.xsize (grid0.coords t) (1 : Fin 2) = 128
    ∧ win0_4.xsize (grid0.coords t) (1 : Fin 2) = 128 :=
  (by decide +kernel : ∀ t : Fin grid0.N, _)

theorem point_lt (t : Fin cfg0.N) : t.val < 6 := lt_of_lt_of_eq t.isLt N_0

/-! ## The buffers' contents at an index -/

/-- Row p, if inside the array, of a row buffer just fetched at point t is row 18000·t + p of the first feature
    matrix, whatever the buffer held before. -/
theorem rows0_at (c : Dev nD) (t : Fin cfg0.N) (d : S18000x128.Idx → Elt Ideal .f32) (p : Fin 18000) (k : Fin 128) (P : Fin 100000)
    (hp : p.val < (if t.val = 5 then 10000 else 18000)) (hP : P.val = t.val * 18000 + p.val) :
    (cfg0.win 0).fill (cfg0.grid.coords t) d (iblk m c 0 t) (ix2 p k) = m ((c : Thread nD τ).loc main_arg0) (ix2 P k) := by
  obtain ⟨e0, e1, -⟩ := sched t
  obtain ⟨x0, -, -, x1, -⟩ := cuts t
  have hm : (cfg0.win 0).moved (cfg0.grid.coords t) (ix2 p k) = true :=
    ((cfg0.win 0).moved_iff _ _).mpr fun a => by
      match a with
      | ⟨0, _⟩ => show p.val < win0_0.xsize (grid0.coords t) (0 : Fin 2); rw [x0]; exact hp
      | ⟨1, _⟩ => show k.val < win0_0.xsize (grid0.coords t) (1 : Fin 2); rw [x1]; exact k.isLt
  unfold Window.fill
  rw [dif_pos hm]
  show V m c main_arg0 (((cfg0.win 0).blk t).view.emb _) = _
  refine congrArg (m ((c : Thread nD τ).loc main_arg0)) (funext fun a => Fin.ext ?_)
  match a with
  | ⟨0, _⟩ => show win0_0.index t (0 : Fin 2) * 18000 + 1 * p.val = P.val; rw [e0, hP]; omega
  | ⟨1, _⟩ => show win0_0.index t (1 : Fin 2) * 128 + 1 * k.val = k.val; rw [e1]; omega

/-- The second feature matrix's likewise. -/
theorem rows1_at (c : Dev nD) (t : Fin cfg0.N) (d : S18000x128.Idx → Elt Ideal .f32) (p : Fin 18000) (k : Fin 128) (P : Fin 100000)
    (hp : p.val < (if t.val = 5 then 10000 else 18000)) (hP : P.val = t.val * 18000 + p.val) :
    (cfg0.win 1).fill (cfg0.grid.coords t) d (iblk m c 1 t) (ix2 p k) = m ((c : Thread nD τ).loc main_arg1) (ix2 P k) := by
  obtain ⟨-, -, e0, e1, -⟩ := sched t
  obtain ⟨-, x0, -, -, x1, -⟩ := cuts t
  have hm : (cfg0.win 1).moved (cfg0.grid.coords t) (ix2 p k) = true :=
    ((cfg0.win 1).moved_iff _ _).mpr fun a => by
      match a with
      | ⟨0, _⟩ => show p.val < win0_1.xsize (grid0.coords t) (0 : Fin 2); rw [x0]; exact hp
      | ⟨1, _⟩ => show k.val < win0_1.xsize (grid0.coords t) (1 : Fin 2); rw [x1]; exact k.isLt
  unfold Window.fill
  rw [dif_pos hm]
  show V m c main_arg1 (((cfg0.win 1).blk t).view.emb _) = _
  refine congrArg (m ((c : Thread nD τ).loc main_arg1)) (funext fun a => Fin.ext ?_)
  match a with
  | ⟨0, _⟩ => show win0_1.index t (0 : Fin 2) * 18000 + 1 * p.val = P.val; rw [e0, hP]; omega
  | ⟨1, _⟩ => show win0_1.index t (1 : Fin 2) * 128 + 1 * k.val = k.val; rw [e1]; omega

/-- A weight buffer holds its whole weight matrix at every point. -/
theorem weights2_at (c : Dev nD) (t : Fin cfg0.N) (k q : Fin 128) :
    iblk m c 2 t (ix2 k q) = m ((c : Thread nD τ).loc main_arg2) (ix2 k q) := by
  obtain ⟨-, -, -, -, -, -, e0, e1, -⟩ := sched t
  show V m c main_arg2 (((cfg0.win 2).blk t).view.emb (ix2 k q)) = _
  refine congrArg (m ((c : Thread nD τ).loc main_arg2)) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega
theorem weights3_at (c : Dev nD) (t : Fin cfg0.N) (k q : Fin 128) :
    iblk m c 3 t (ix2 k q) = m ((c : Thread nD τ).loc main_arg3) (ix2 k q) := by
  obtain ⟨-, -, -, -, -, -, -, -, e0, e1⟩ := sched t
  show V m c main_arg3 (((cfg0.win 3).blk t).view.emb (ix2 k q)) = _
  refine congrArg (m ((c : Thread nD τ).loc main_arg3)) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- THE BLOCK'S ELEMENT. What the body stores at row p (inside the array) and column q at point t, whatever the row
    buffers hold past the array's end, is the layer's element at row 18000·t + p, column q, of the argument arrays. -/
theorem block_elem (c : Dev nD) (t : Fin cfg0.N) (d0 d1 : S18000x128.Idx → Elt Ideal .f32) (p : Fin 18000) (q : Fin 128) (P : Fin 100000)
    (hp : p.val < (if t.val = 5 then 10000 else 18000)) (hP : P.val = t.val * 18000 + p.val) :
    stored ((cfg0.win 0).fill (cfg0.grid.coords t) d0 (iblk m c 0 t)) ((cfg0.win 1).fill (cfg0.grid.coords t) d1 (iblk m c 1 t))
        (iblk m c 2 t) (iblk m c 3 t) (ix2 p q)
      = elem (m ((c : Thread nD τ).loc main_arg0)) (m ((c : Thread nD τ).loc main_arg1))
          (m ((c : Thread nD τ).loc main_arg2)) (m ((c : Thread nD τ).loc main_arg3)) P q := by
  rw [stored_eq, pay_apply]
  exact elem_eq_of _ _ _ _ _ _ _ _ p P q q (fun k => rows0_at m c t d0 p k P hp hP) (fun k => rows1_at m c t d1 p k P hp hP)
    (fun k => weights2_at m c t k q) (fun k => weights3_at m c t k q)

/-! ## The body at a point, every window stated -/

/-- An index of the part of a block inside the array, by its two coordinates. -/
theorem xinj4_eq (t : Fin cfg0.N) (y : ((cfg0.win 4).xblock (cfg0.grid.coords t)).Idx) (p : Fin 18000) (q : Fin 128)
    (hp : p.val = (y 0).val) (hq : q.val = (y 1).val) : (cfg0.win 4).xinj (cfg0.grid.coords t) y = ix2 p q :=
  funext fun a => Fin.ext (by match a with | ⟨0, _⟩ => exact hp.symm | ⟨1, _⟩ => exact hq.symm)

/-- The coordinates of such an index: its row is below the block's rows inside the array, its column below 128. -/
theorem xidx4_bounds (t : Fin cfg0.N) (y : ((cfg0.win 4).xblock (cfg0.grid.coords t)).Idx) :
    (y 0).val < (if t.val = 5 then 10000 else 18000) ∧ (y 1).val < 128 := by
  obtain ⟨-, -, x0, -, -, x1⟩ := cuts t
  have h0 : (y 0).val < win0_4.xsize (grid0.coords t) (0 : Fin 2) := (y 0).isLt
  have h1 : (y 1).val < win0_4.xsize (grid0.coords t) (1 : Fin 2) := (y 1).isLt
  rw [x0] at h0; rw [x1] at h1; exact ⟨h0, h1⟩

/-- On the rows inside the array, what the body stores does not depend on what the row buffers hold past the array's
    end: it is what the proof data names (the buffers there at zero). -/
theorem stored_cut_eq (c : Dev nD) (t : Fin cfg0.N) (d0 d1 : S18000x128.Idx → Elt Ideal .f32) :
    (cfg0.win 4).cut (cfg0.grid.coords t)
        (stored ((cfg0.win 0).fill (cfg0.grid.coords t) d0 (iblk m c 0 t)) ((cfg0.win 1).fill (cfg0.grid.coords t) d1 (iblk m c 1 t)) (iblk m c 2 t) (iblk m c 3 t))
      = (cfg0.win 4).cut (cfg0.grid.coords t) ((dats m 0 c).after 4 t) := by
  rw [after_4]
  funext y
  obtain ⟨hy0, hy1⟩ := xidx4_bounds t y
  have ht := point_lt t
  have hp18 : (y 0).val < 18000 := by split at hy0 <;> omega
  have hP : t.val * 18000 + (y 0).val < 100000 := by split at hy0 <;> omega
  have e := xinj4_eq t y ⟨(y 0).val, hp18⟩ ⟨(y 1).val, hy1⟩ rfl rfl
  show stored _ _ _ _ ((cfg0.win 4).xinj (cfg0.grid.coords t) y) = stored _ _ _ _ ((cfg0.win 4).xinj (cfg0.grid.coords t) y)
  rw [e]
  unfold rows0 rows1
  rw [block_elem m c t d0 d1 ⟨(y 0).val, hp18⟩ ⟨(y 1).val, hy1⟩ ⟨t.val * 18000 + (y 0).val, hP⟩ hy0 rfl,
    block_elem m c t zeroRows zeroRows ⟨(y 0).val, hp18⟩ ⟨(y 1).val, hy1⟩ ⟨t.val * 18000 + (y 0).val, hP⟩ hy0 rfl]

def fullPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def fullPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t)))))

/-- The body at any point, the result's buffer stated too: on the rows inside the array it ends at what the proof data
    names (`stored_cut_eq`), which is all the obligation of a window whose last block overhangs asks. -/
theorem sound_full_body (c : Dev nD) (t : Fin cfg0.N) :
    fullPre m c t ⊢ wp frame (wpE (defs₀ (F := Ideal)) Variants.none c none) Set.univ (bodyAt0 t) (fun _ => fullPost m c t) := by
  unfold fullPre fullPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, cut_rows0, cut_rows1]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    ((cfg0.win 0).fill (cfg0.grid.coords t) d0 (iblk m c 0 t)) ((cfg0.win 1).fill (cfg0.grid.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  iexists (stored ((cfg0.win 0).fill (cfg0.grid.coords t) d0 (iblk m c 0 t)) ((cfg0.win 1).fill (cfg0.grid.coords t) d1 (iblk m c 1 t)) (iblk m c 2 t) (iblk m c 3 t))
  rw [(cfg0.win 4).fill_congr_cut (cfg0.grid.coords t) (stored_cut_eq m c t d0 d1)]
  iexact H4

/-- The library's body obligation, at every point. -/
theorem full_obligation (c : Dev nD) :
    BodyObligationLoose (dats (F := Ideal) m 0 c) (defs₀ (F := Ideal)) Variants.none () Set.univ := fun t => by
  rw [bigSep_W0, bigSep_W0]
  exact sound_full_body m c t

/-! ## The run -/

set_option backward.isDefEq.respectTransparency.types false in
/-- Every weakly fair execution of @main terminates, and every final state has every array of the pipeline at what the
    library computes from the proof data: an input as at entry, the result its entry contents overwritten, in point
    order, by the rows inside the array of what the body left. -/
theorem run_full : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => full_obligation m c) (hshare := fun c => (dats m 0 c).share_full fun _ => rfl)
    (howed := fun _ _ => rfl) (V := V m) (hmain := hmain m Variants.none) (hA := A_eq m) (hΦ := fun _ _ => rfl)

/-! ## The result array, whole -/

/-- The layer function of the argument arrays as launched. -/
abbrev result (c : Dev nD) : Buf (Elt Ideal) ((c : Thread nD τ).loc main_v0) :=
  layer (m ((c : Thread nD τ).loc main_arg0)) (m ((c : Thread nD τ).loc main_arg1))
    (m ((c : Thread nD τ).loc main_arg2)) (m ((c : Thread nD τ).loc main_arg3))

/-- What point t writes back is block t of the layer function: row p of the block's part inside the array is the
    array's row 18000·t + p. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after_4]
  funext y
  obtain ⟨hy0, hy1⟩ := xidx4_bounds t y
  obtain ⟨-, -, -, -, e0, e1, -⟩ := sched t
  have ht := point_lt t
  have hp18 : (y 0).val < 18000 := by split at hy0 <;> omega
  have hP : t.val * 18000 + (y 0).val < 100000 := by split at hy0 <;> omega
  have e := xinj4_eq t y ⟨(y 0).val, hp18⟩ ⟨(y 1).val, hy1⟩ rfl rfl
  have eR : ((cfg0.win 4).blk t).view.emb y = ix2 (n0 := 100000) (n1 := 128) ⟨t.val * 18000 + (y 0).val, hP⟩ ⟨(y 1).val, hy1⟩ :=
    funext fun a => Fin.ext (by
      match a with
      | ⟨0, _⟩ => show win0_4.index t (0 : Fin 2) * 18000 + 1 * (y 0).val = t.val * 18000 + (y 0).val; rw [e0]; omega
      | ⟨1, _⟩ => show win0_4.index t (1 : Fin 2) * 128 + 1 * (y 1).val = (y 1).val; rw [e1]; omega)
  show stored _ _ _ _ ((cfg0.win 4).xinj (cfg0.grid.coords t) y) = result m c (((cfg0.win 4).blk t).view.emb y)
  rw [e, eR]
  unfold rows0 rows1
  rw [block_elem m c t zeroRows zeroRows ⟨(y 0).val, hp18⟩ ⟨(y 1).val, hy1⟩ ⟨t.val * 18000 + (y 0).val, hP⟩ hy0 rfl]
  rfl

/-- An index of the result array is in point t's block iff its row is among the block's rows inside the array. -/
theorem mem_blk4 (t : Fin cfg0.N) (i : S100000x128.Idx) :
    i ∈ ((cfg0.win 4).blk t).view.set ↔ ∀ a : Fin 2, win0_4.index t a * S18000x128.size a ≤ (i a).val
      ∧ (i a).val < win0_4.index t a * S18000x128.size a + win0_4.xsize (grid0.coords t) a := by
  show i ∈ ((View.whole main_v0).slice (win0_4.rect t)).set ↔ _
  rw [View.set_slice_whole, Rect.mem_set_unit]
  exact Iff.rfl

/-- The six blocks' rows inside the array are 0‥17999, …, 72000‥89999 and 90000‥99999: every row is in the block of
    the point (row / 18000). -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 18000 < grid0.N := by rw [N_0]; omega
  refine ⟨⟨(i 0).val / 18000, hlt⟩, flush0_4 _, ?_⟩
  rw [mem_blk4]
  obtain ⟨-, -, -, -, e0, e1, -⟩ := sched ⟨(i 0).val / 18000, hlt⟩
  obtain ⟨-, -, x0, -, -, x1⟩ := cuts ⟨(i 0).val / 18000, hlt⟩
  intro a
  match a with
  | ⟨0, _⟩ =>
    show win0_4.index ⟨(i 0).val / 18000, hlt⟩ (0 : Fin 2) * 18000 ≤ (i 0).val
      ∧ (i 0).val < win0_4.index ⟨(i 0).val / 18000, hlt⟩ (0 : Fin 2) * 18000 + win0_4.xsize (grid0.coords ⟨(i 0).val / 18000, hlt⟩) (0 : Fin 2)
    rw [e0, x0]
    show (i 0).val / 18000 * 18000 ≤ (i 0).val ∧ (i 0).val < (i 0).val / 18000 * 18000 + (if (i 0).val / 18000 = 5 then 10000 else 18000)
    split <;> omega
  | ⟨1, _⟩ =>
    show win0_4.index ⟨(i 0).val / 18000, hlt⟩ (1 : Fin 2) * 128 ≤ (i 1).val
      ∧ (i 1).val < win0_4.index ⟨(i 0).val / 18000, hlt⟩ (1 : Fin 2) * 128 + win0_4.xsize (grid0.coords ⟨(i 0).val / 18000, hlt⟩) (1 : Fin 2)
    rw [e1, x1]; omega

/-- The result array after the run is the layer function of the argument arrays. -/
theorem final (c : Dev nD) : (dats m 0 c).arrAt 4 cfg0.N = result m c :=
  (dats m 0 c).arrAt_eq_of_cover 4 (result m c) (fun t _ => flushed_eq m c t) covered

/-- The idealized kernel's run: it terminates, the result array ends at the layer function of the argument arrays, and
    the argument arrays end as they were. -/
theorem run_value : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).1 4).trans (final m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_full m ρ)

end Cert.KernelIdeal.HandValue

end
-- ==== Proof.RefValue.lean ====
/-
  The reference's result on the extended reals is the layer function of its four arguments.

  The reference computes neigh·W_neigh and src·W_self by two host products, adds them (self first), and takes the maximum
  with a broadcast zero. Read at an index (r, q) each product is a sum over the shared axis k of the left operand at (r, k)
  times the right at (k, q); the sum of the two and the maximum with the zero word, which is the real 0, is the layer's
  element (r, q). (The row mean the reference also computes is discarded and is not part of the result.)
-/
import proofs.«153068_g1125281432215_week1_w3_1517_26_alg».proof.Proof.Gen.ReferenceIdeal.Run
import proofs.«153068_g1125281432215_week1_w3_1517_26_alg».proof.Proof.Gen.ReferenceIdeal.Read
import proofs.«153068_g1125281432215_week1_w3_1517_26_alg».proof.Proof.Spec

noncomputable section

namespace Cert.ReferenceIdeal.RefValue

open Cert.ReferenceIdeal Cert.ReferenceIdeal.Gen Cert.ReferenceIdeal.Read Cert.SumCombine
open Idealize.ShloMosaic Idealize.ShloMosaic.TcCoe Idealize.ShloMosaic.ValueIdx Idealize.SL.Sem

/-- The left factor of either product at output index i and shared coordinate k sits at (row of i, k), -/
theorem left4 (i : S100000x128.Idx) (k : Fin 128) : lidx_main_v4 i k = ix2 (n0 := 100000) (n1 := 128) (i 0) k :=
  funext fun a => Fin.ext (by match a with | ⟨0, _⟩ => rfl | ⟨1, _⟩ => rfl)
theorem left3 (i : S100000x128.Idx) (k : Fin 128) : lidx_main_v3 i k = ix2 (n0 := 100000) (n1 := 128) (i 0) k :=
  funext fun a => Fin.ext (by match a with | ⟨0, _⟩ => rfl | ⟨1, _⟩ => rfl)
/-- and the right factor at (k, column of i). -/
theorem right4 (i : S100000x128.Idx) (k : Fin 128) : ridx_main_v4 i k = ix2 (n0 := 128) (n1 := 128) k (i 1) :=
  funext fun a => Fin.ext (by match a with | ⟨0, _⟩ => rfl | ⟨1, _⟩ => rfl)
theorem right3 (i : S100000x128.Idx) (k : Fin 128) : ridx_main_v3 i k = ix2 (n0 := 128) (n1 := 128) k (i 1) :=
  funext fun a => Fin.ext (by match a with | ⟨0, _⟩ => rfl | ⟨1, _⟩ => rfl)

/-- The reference's last stage is the layer function: src against W_self plus neigh against W_neigh, then the
    maximum with 0. -/
theorem reference_is_layer (x0 x1 : (⟨S100000x128, .f32⟩ : BufTy).Contents (Elt Ideal)) (x2 x3 : (⟨S128x128, .f32⟩ : BufTy).Contents (Elt Ideal)) :
    val_main_v6 (F := Ideal) x0 x1 x2 x3 = layer x0 x1 x2 x3 := by
  funext i
  rw [val_main_v6_apply, val_main_v5_apply, val_main_v4_apply, val_main_v3_apply, val_main_call0_v0_apply, val_main_call0_cst_apply]
  simp only [left4, left3, right4, right3, Ideal.ofBits_def, Ideal.ofBits_zero_f32, Ideal.maximumf_def, Ideal.addf_def]
  rfl

end Cert.ReferenceIdeal.RefValue

end
-- ==== Proof.lean ====
/-
  The certificate of a graph-convolution layer with the 'sum' combine: a Pallas kernel computing
      hidden = max(src · W_self + neigh · W_neigh, 0)
  over 100000 rows in six row blocks of 18000 (the sixth holding the last 10000 rows), against the jnp reference
  relu(src @ W_self + neigh @ W_neigh).

  The frames. The kernel's body at a point loads its two row blocks and the two weight matrices whole and stores one
  whole block; run on arbitrary buffer contents it leaves the four input buffers as they were, which with the library's
  pipeline rule gives, at the word level and on the extended reals alike, that the program terminates without a fault and
  leaves its four argument arrays unchanged (Proof/BitsBody.lean, Proof/IdealBody.lean). The reference is a host program;
  its frame is its run with the result dropped.

  The values, on the extended reals. A matrix product into a zero accumulator and the host's dot product are the same
  finite sum over the shared axis; a block's row p at point t is the array's row 18000·t + p and depends on that row of
  the two row buffers only, so what the buffers hold past the array's end in the sixth block does not matter; the six
  write-backs cover every row (Proof/IdealValue.lean). The reference's stages read at an index are the same expression,
  with the same grouping of the sum (Proof/RefValue.lean). No law beyond that is used, and the finiteness precondition is
  never opened. The idealization rewrote nothing, so `preserves` is `True`.
-/
import proofs.«153068_g1125281432215_week1_w3_1517_26_alg».proof.Defs
import proofs.«153068_g1125281432215_week1_w3_1517_26_alg».proof.Proof.Gen.Kernel
import proofs.«153068_g1125281432215_week1_w3_1517_26_alg».proof.Proof.Gen.KernelIdeal
import proofs.«153068_g1125281432215_week1_w3_1517_26_alg».proof.Proof.Gen.ReferenceIdeal
import proofs.«153068_g1125281432215_week1_w3_1517_26_alg».proof.Proof.Gen.Pre_finite_inputs
import proofs.«153068_g1125281432215_week1_w3_1517_26_alg».proof.Proof.BitsBody
import proofs.«153068_g1125281432215_week1_w3_1517_26_alg».proof.Proof.IdealBody
import proofs.«153068_g1125281432215_week1_w3_1517_26_alg».proof.Proof.IdealValue
import proofs.«153068_g1125281432215_week1_w3_1517_26_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's result are the layer function of arguments
    that agree. -/
theorem algebraic : Cert.algebraic_KernelIdeal_ReferenceIdeal := by
  intro m ρ m' ρ' _ hagree
  refine ⟨fun c => Cert.KernelIdeal.HandValue.result m c, Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.reference_is_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
